-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x1 : Shape := ⟨2, ![2000, 1]⟩
abbrev S2000x128 : Shape := ⟨2, ![2000, 128]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S1x128, .f32⟩
  | .hbm, ⟨40, _⟩ => ⟨S128x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S128x128, .f32⟩
  | .hbm, ⟨56, _⟩ => ⟨S1x128, .f32⟩
  | .hbm, ⟨57, _⟩ => ⟨S128x128, .f32⟩
  | .hbm, ⟨58, _⟩ => ⟨S100000x128, .f32⟩
  | .local _ .vmem, ⟨0, _⟩ => ⟨S2000x1, .f32⟩
  | .local _ .vmem, ⟨1, _⟩ => ⟨S2000x1, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S100000x1.size a
  hwx1_0 : ∀ i : grid1.Coords, EltTy.bits .f32 = 32 ∨ (Rect.block (s := S100000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v12) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v12) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized program's run with its RESULT read: every weakly fair execution of @main terminates, nothing faulting,
  in a state whose unscoped buffers hold the contents the last region's exit leaves — so the result buffer holds what the
  second region's write-backs leave in it, and every argument buffer what it was launched with.
-/
import proofs.«146578_j68676527063444_1_alg».proof.Proof.Gen.KernelIdeal.Frame

set_option maxRecDepth 16384

noncomputable section

namespace Cert.KernelIdeal.SageRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, for any property of the final memory that follows from "every unscoped buffer of every core holds the last
    boundary's contents". -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result buffer at the last boundary's contents and every argument as launched. -/
theorem run_value : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_of m ρ (fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.SageRun

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.LibKeepdims.lean ====
/-
  Layout facts for a sum taken along the last axis with the axis kept: a vector of `a` entries recast as a column
  `[a, 1]`, a column spread across `b` lanes, and a one-entry vector spread down a column. Each says which entry of the
  operand an entry of the result reads. General over the extents.
-/
import Idealize.ShloMosaic.Lib.Pipeline.Value
import Idealize.ShloMosaic.Lib.ValueIdx
import Idealize.ShloMosaic.Lib.ValueLayout

namespace Idealize.ShloMosaic.Keepdims

open Idealize.ShloMosaic Idealize.ShloMosaic.ValueIdx

variable {α : Type}

/-- A vector `[a]` recast as a column `[a, 1]` reads, at `(i, 0)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread across `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` recast as a row and spread down `a` rows reads, at `(p, c)`, entry `c`. -/
theorem broadcastTo_row_of_vec_apply {a b : ℕ} (x : (⟨1, ![b]⟩ : Shape).Idx → α) (hc : (⟨1, ![b]⟩ : Shape).ShapeCasts ⟨2, ![1, b]⟩)
    (h : (⟨2, ![1, b]⟩ : Shape).Broadcasts ⟨2, ![a, b]⟩) (p : Fin a) (c : Fin b) :
    broadcastTo ⟨2, ![a, b]⟩ (shapeCast ⟨2, ![1, b]⟩ x hc) h (ix2 p c) = x (ix1 c) :=
  (broadcastTo_1b_ab_apply _ h p c).trans (shapeCast_a_1a_apply x hc 0 c)

end Idealize.ShloMosaic.Keepdims
-- ==== Proof.SageLaw.lean ====
/-
  One mean-aggregation graph layer, row by row, on the extended reals. For node r and output channel q the layer is

      post ( (Σ_k mean(r, k) · Wl(k, q)) + b(q) + Σ_k root(r, k) · Wr(k, q) ),

  where mean(r, k) is the summed neighbour message msg(r, k) divided by the clamped in-degree d(r) = max(deg r, 1), and
  post is either the identity or the positive part max(·, 0). Two arrangements of the mean are compared: the quotient
  msg(r, k) / d(r), and the product msg(r, k) · (1 / d(r)) with a reciprocal taken once per node. They agree on every
  extended real msg(r, k) as soon as d(r) ≠ 0 — on the extended reals x / y is x · y⁻¹ off zero, and 1 / y is then
  1 · y⁻¹ = y⁻¹ — and a clamped degree max(·, 1) is never zero. No finiteness of any operand is used.
-/
import Idealize.ShloMosaic.Lib.ValueIdx
import Idealize.ShloMosaic.Lib.IdealHost
import Idealize.ShloMosaic.PureOps.Ideal

noncomputable section

namespace Sage

open Idealize.ShloMosaic Idealize.ShloMosaic.ValueIdx

/-- The layer's closing map: the positive part, or nothing. -/
def post (relu : Bool) (z : EReal) : EReal := if relu then max z 0 else z

/-- A reciprocal taken first and multiplied in is the quotient, for a nonzero divisor, at every extended real. -/
theorem mul_one_div (x y : EReal) (hy : y ≠ 0) : x * Ideal.div 1 y = Ideal.div x y := by
  unfold Ideal.div
  rw [if_neg hy, if_neg hy, one_mul]

/-- A degree clamped below by one is not zero. -/
theorem max_one_ne_zero (d : EReal) : max d 1 ≠ 0 :=
  (lt_of_lt_of_le zero_lt_one (le_max_right d 1)).ne'

/-- Entry (r, q) of the layer with the mean as a QUOTIENT by the clamped degree `dmax r`; `wlT`, `wrT` are the weights
    already transposed (read at (k, q)), `b` the bias vector. -/
def rowQ (relu : Bool) (msg root : (⟨2, ![100000, 128]⟩ : Shape).Idx → EReal) (dmax : (⟨1, ![100000]⟩ : Shape).Idx → EReal)
    (wlT wrT : (⟨2, ![128, 128]⟩ : Shape).Idx → EReal) (b : (⟨1, ![128]⟩ : Shape).Idx → EReal) (r : Fin 100000) (q : Fin 128) : EReal :=
  post relu (((∑ k : Fin 128, Ideal.div (msg (ix2 r k)) (dmax (ix1 r)) * wlT (ix2 k q)) + b (ix1 q))
    + ∑ k : Fin 128, root (ix2 r k) * wrT (ix2 k q))

/-- Entry (r, q) of the layer with the mean as a PRODUCT with the per-node factor `inv (r, 0)` kept as a column, the bias
    kept as a row. -/
def rowP (relu : Bool) (msg root : (⟨2, ![100000, 128]⟩ : Shape).Idx → EReal) (inv : (⟨2, ![100000, 1]⟩ : Shape).Idx → EReal)
    (wlT wrT : (⟨2, ![128, 128]⟩ : Shape).Idx → EReal) (b2 : (⟨2, ![1, 128]⟩ : Shape).Idx → EReal) (r : Fin 100000) (q : Fin 128) : EReal :=
  post relu (((∑ k : Fin 128, (msg (ix2 r k) * inv (ix2 r (0 : Fin 1))) * wlT (ix2 k q)) + b2 (ix2 (0 : Fin 1) q))
    + ∑ k : Fin 128, root (ix2 r k) * wrT (ix2 k q))

/-- The two arrangements agree when the column holds the reciprocals of the nonzero clamped degrees and the row is the
    bias vector. -/
theorem rowP_eq_rowQ (relu : Bool) (msg root : (⟨2, ![100000, 128]⟩ : Shape).Idx → EReal)
    (inv : (⟨2, ![100000, 1]⟩ : Shape).Idx → EReal) (dmax : (⟨1, ![100000]⟩ : Shape).Idx → EReal)
    (wlT wrT : (⟨2, ![128, 128]⟩ : Shape).Idx → EReal) (b2 : (⟨2, ![1, 128]⟩ : Shape).Idx → EReal) (b : (⟨1, ![128]⟩ : Shape).Idx → EReal)
    (hinv : ∀ r : Fin 100000, inv (ix2 r (0 : Fin 1)) = Ideal.div 1 (dmax (ix1 r)))
    (hd : ∀ r : Fin 100000, dmax (ix1 r) ≠ 0)
    (hb : ∀ q : Fin 128, b2 (ix2 (0 : Fin 1) q) = b (ix1 q)) (r : Fin 100000) (q : Fin 128) :
    rowP relu msg root inv wlT wrT b2 r q = rowQ relu msg root dmax wlT wrT b r q := by
  unfold rowP rowQ
  rw [hb q, hinv r]
  refine congrArg (post relu) (congrArg (· + _) (congrArg (· + _) (Finset.sum_congr rfl fun k _ => ?_)))
  rw [mul_one_div _ _ (hd r)]

/-- The whole layer as one array function, quotient arrangement. -/
def arrQ (relu : Bool) (msg root : (⟨2, ![100000, 128]⟩ : Shape).Idx → EReal) (dmax : (⟨1, ![100000]⟩ : Shape).Idx → EReal)
    (wlT wrT : (⟨2, ![128, 128]⟩ : Shape).Idx → EReal) (b : (⟨1, ![128]⟩ : Shape).Idx → EReal) :
    (⟨2, ![100000, 128]⟩ : Shape).Idx → EReal :=
  fun j => rowQ relu msg root dmax wlT wrT b (j 0) (j 1)

/-- The whole layer as one array function, product arrangement. -/
def arrP (relu : Bool) (msg root : (⟨2, ![100000, 128]⟩ : Shape).Idx → EReal) (inv : (⟨2, ![100000, 1]⟩ : Shape).Idx → EReal)
    (wlT wrT : (⟨2, ![128, 128]⟩ : Shape).Idx → EReal) (b2 : (⟨2, ![1, 128]⟩ : Shape).Idx → EReal) :
    (⟨2, ![100000, 128]⟩ : Shape).Idx → EReal :=
  fun j => rowP relu msg root inv wlT wrT b2 (j 0) (j 1)

theorem arrP_eq_arrQ (relu : Bool) (msg root : (⟨2, ![100000, 128]⟩ : Shape).Idx → EReal)
    (inv : (⟨2, ![100000, 1]⟩ : Shape).Idx → EReal) (dmax : (⟨1, ![100000]⟩ : Shape).Idx → EReal)
    (wlT wrT : (⟨2, ![128, 128]⟩ : Shape).Idx → EReal) (b2 : (⟨2, ![1, 128]⟩ : Shape).Idx → EReal) (b : (⟨1, ![128]⟩ : Shape).Idx → EReal)
    (hinv : ∀ r : Fin 100000, inv (ix2 r (0 : Fin 1)) = Ideal.div 1 (dmax (ix1 r)))
    (hd : ∀ r : Fin 100000, dmax (ix1 r) ≠ 0)
    (hb : ∀ q : Fin 128, b2 (ix2 (0 : Fin 1) q) = b (ix1 q)) :
    arrP relu msg root inv wlT wrT b2 = arrQ relu msg root dmax wlT wrT b :=
  funext fun j => rowP_eq_rowQ relu msg root inv dmax wlT wrT b2 b hinv hd hb (j 0) (j 1)

end Sage

end
-- ==== Proof.KernelPayload.lean ====
/-
  The two kernel bodies read at an entry. Each body loads one block of 2000 rows of the summed neighbour messages, of the
  per-node factors (a column) and of the root features, and the whole weight and bias blocks, and stores
  (msg · factor) · Wl + bias + root · Wr — the first body then takes the positive part. Read at row p and lane q, with
  the matrix products into a zero accumulator as plain sums over the 128 contracted positions, that is the layer's row
  formula in the product arrangement.
-/
import proofs.«146578_j68676527063444_1_alg».proof.Proof.Gen.KernelIdeal.Skeleton
import proofs.«146578_j68676527063444_1_alg».proof.Proof.LibPlainDot
import proofs.«146578_j68676527063444_1_alg».proof.Proof.LibKeepdims
import proofs.«146578_j68676527063444_1_alg».proof.Proof.SageLaw
import Idealize.ShloMosaic.Lib.Pipeline.Value
import Idealize.ShloMosaic.Lib.ValueLayout
import Idealize.ShloMosaic.PureOps.Ideal.Laws

noncomputable section

namespace Cert.KernelIdeal.SageBody

open Idealize.ShloMosaic Idealize.ShloMosaic.ValueIdx Cert.KernelIdeal Cert.KernelIdeal.Gen

/-- The kernel's matrix products are plain [2000, 128] × [128, 128] products: the left operand's lanes contracted with the
    right operand's rows. -/
theorem plain : PlainDot.IsPlain dot_S2000x128_S128x128_S2000x128_1_0_0_1_n_n where
  rank := rfl
  size := rfl
  lhs0 := fun i q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  lhs1 := fun i q => dot_S2000x128_S128x128_S2000x128_1_0_0_1_n_n.lhsIdx_val_of_single rfl i q
  rhs0 := fun i q => dot_S2000x128_S128x128_S2000x128_1_0_0_1_n_n.rhsIdx_val_of_single rfl i q
  rhs1 := fun i q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- What the first layer's body stores, at row p and lane q of its block, from the blocks it loaded: the message row
    scaled by the row's factor and multiplied into the first weight block, plus the bias row, plus the root row multiplied
    into the second weight block, then the positive part. Roundings to bf16 are the identity on extended reals. -/
theorem pay0_apply (x1 : Vec Ideal S2000x128 .f32) (x0 : Vec Ideal S2000x1 .f32) (x2 : Vec Ideal S2000x128 .f32)
    (x3 x5 : Vec Ideal S128x128 .f32) (x4 : Vec Ideal S1x128 .f32) (p : Fin 2000) (q : Fin 128) :
    k0_pay1 (F := Ideal) x1 x0 x2 x3 x5 x4 (ix2 p q)
      = Sage.post true (((∑ k : Fin 128, (x1 (ix2 p k) * x0 (ix2 p (0 : Fin 1))) * x3 (ix2 k q)) + x4 (ix2 (0 : Fin 1) q))
          + ∑ k : Fin 128, x2 (ix2 p k) * x5 (ix2 k q)) := by
  unfold k0_pay1 Sage.post
  rw [if_pos rfl]
  simp only [shapeCast_self]
  rw [maximumf_apply, addf_apply, addf_apply, broadcast_apply]
  simp only [matmul]
  rw [PlainDot.matmul_zero_apply _ plain, PlainDot.matmul_zero_apply _ plain, broadcastTo_1b_ab_apply]
  simp only [truncf_apply, mulf_apply, Keepdims.broadcastTo_a1_ab_apply]
  exact congrArg _ Ideal.ofBits_zero_f32

/-- The second layer's body stores the same expression without the positive part. -/
theorem pay1_apply (x1 : Vec Ideal S2000x128 .f32) (x0 : Vec Ideal S2000x1 .f32) (x2 : Vec Ideal S2000x128 .f32)
    (x3 x5 : Vec Ideal S128x128 .f32) (x4 : Vec Ideal S1x128 .f32) (p : Fin 2000) (q : Fin 128) :
    k1_pay1 (F := Ideal) x1 x0 x2 x3 x5 x4 (ix2 p q)
      = Sage.post false (((∑ k : Fin 128, (x1 (ix2 p k) * x0 (ix2 p (0 : Fin 1))) * x3 (ix2 k q)) + x4 (ix2 (0 : Fin 1) q))
          + ∑ k : Fin 128, x2 (ix2 p k) * x5 (ix2 k q)) := by
  unfold k1_pay1 Sage.post
  rw [if_neg (by decide)]
  simp only [shapeCast_self]
  rw [addf_apply, addf_apply]
  simp only [matmul]
  rw [PlainDot.matmul_zero_apply _ plain, PlainDot.matmul_zero_apply _ plain, broadcastTo_1b_ab_apply]
  simp only [truncf_apply, mulf_apply, Keepdims.broadcastTo_a1_ab_apply]

/-- Row p of block number T of an array of 100000 rows cut into blocks of 2000 rows. -/
abbrev blockRow (T : Nat) (hT : T < 50) (p : Fin 2000) : Fin 100000 := ⟨T * 2000 + p.val, by have := p.isLt; omega⟩

/-- A block's entry as the whole layer's entry: when the loaded blocks are rows T·2000 … T·2000 + 1999 of the message, root and
    factor arrays and the whole weight and bias arrays, what the first layer's body stores at y is the layer (product
    arrangement) at the array index i that y sits at. -/
theorem block0_eq (b1 : Vec Ideal S2000x128 .f32) (b0 : Vec Ideal S2000x1 .f32) (b2 : Vec Ideal S2000x128 .f32)
    (b3 b5 : Vec Ideal S128x128 .f32) (b4 : Vec Ideal S1x128 .f32)
    (msg root : (⟨2, ![100000, 128]⟩ : Shape).Idx → EReal) (inv : (⟨2, ![100000, 1]⟩ : Shape).Idx → EReal)
    (wl wr : (⟨2, ![128, 128]⟩ : Shape).Idx → EReal) (bb : (⟨2, ![1, 128]⟩ : Shape).Idx → EReal)
    (T : Nat) (hT : T < 50)
    (h1 : ∀ (p : Fin 2000) (k : Fin 128), b1 (ix2 p k) = msg (ix2 (blockRow T hT p) k))
    (h0 : ∀ (p : Fin 2000), b0 (ix2 p (0 : Fin 1)) = inv (ix2 (blockRow T hT p) (0 : Fin 1)))
    (h2 : ∀ (p : Fin 2000) (k : Fin 128), b2 (ix2 p k) = root (ix2 (blockRow T hT p) k))
    (h3 : ∀ (k q : Fin 128), b3 (ix2 k q) = wl (ix2 k q))
    (h5 : ∀ (k q : Fin 128), b5 (ix2 k q) = wr (ix2 k q))
    (h4 : ∀ (q : Fin 128), b4 (ix2 (0 : Fin 1) q) = bb (ix2 (0 : Fin 1) q))
    (y : S2000x128.Idx) (i : (⟨2, ![100000, 128]⟩ : Shape).Idx)
    (hi0 : (i 0).val = T * 2000 + (y 0).val) (hi1 : (i 1).val = (y 1).val) :
    k0_pay1 (F := Ideal) b1 b0 b2 b3 b5 b4 y = Sage.arrP true msg root inv wl wr bb i := by
  obtain ⟨p, q, rfl⟩ : ∃ (p : Fin 2000) (q : Fin 128), y = ix2 p q := ⟨y 0, y 1, eq_ix2 y⟩
  have e0 : (i 0 : Fin 100000) = blockRow T hT p := Fin.ext hi0
  have e1 : (i 1 : Fin 128) = q := Fin.ext hi1
  rw [pay0_apply]
  unfold Sage.arrP Sage.rowP
  rw [e0, e1]
  simp only [h1, h0, h2, h3, h5, h4]

/-- The same for the second layer's body. -/
theorem block1_eq (b1 : Vec Ideal S2000x128 .f32) (b0 : Vec Ideal S2000x1 .f32) (b2 : Vec Ideal S2000x128 .f32)
    (b3 b5 : Vec Ideal S128x128 .f32) (b4 : Vec Ideal S1x128 .f32)
    (msg root : (⟨2, ![100000, 128]⟩ : Shape).Idx → EReal) (inv : (⟨2, ![100000, 1]⟩ : Shape).Idx → EReal)
    (wl wr : (⟨2, ![128, 128]⟩ : Shape).Idx → EReal) (bb : (⟨2, ![1, 128]⟩ : Shape).Idx → EReal)
    (T : Nat) (hT : T < 50)
    (h1 : ∀ (p : Fin 2000) (k : Fin 128), b1 (ix2 p k) = msg (ix2 (blockRow T hT p) k))
    (h0 : ∀ (p : Fin 2000), b0 (ix2 p (0 : Fin 1)) = inv (ix2 (blockRow T hT p) (0 : Fin 1)))
    (h2 : ∀ (p : Fin 2000) (k : Fin 128), b2 (ix2 p k) = root (ix2 (blockRow T hT p) k))
    (h3 : ∀ (k q : Fin 128), b3 (ix2 k q) = wl (ix2 k q))
    (h5 : ∀ (k q : Fin 128), b5 (ix2 k q) = wr (ix2 k q))
    (h4 : ∀ (q : Fin 128), b4 (ix2 (0 : Fin 1) q) = bb (ix2 (0 : Fin 1) q))
    (y : S2000x128.Idx) (i : (⟨2, ![100000, 128]⟩ : Shape).Idx)
    (hi0 : (i 0).val = T * 2000 + (y 0).val) (hi1 : (i 1).val = (y 1).val) :
    k1_pay1 (F := Ideal) b1 b0 b2 b3 b5 b4 y = Sage.arrP false msg root inv wl wr bb i := by
  obtain ⟨p, q, rfl⟩ : ∃ (p : Fin 2000) (q : Fin 128), y = ix2 p q := ⟨y 0, y 1, eq_ix2 y⟩
  have e0 : (i 0 : Fin 100000) = blockRow T hT p := Fin.ext hi0
  have e1 : (i 1 : Fin 128) = q := Fin.ext hi1
  rw [pay1_apply]
  unfold Sage.arrP Sage.rowP
  rw [e0, e1]
  simp only [h1, h0, h2, h3, h5, h4]

end Cert.KernelIdeal.SageBody

end
-- ==== Proof.KernelArrays.lean ====
/-
  From blocks to arrays. Each launch walks 50 grid points; point t loads rows t·2000 … t·2000 + 1999 of the message, factor
  and root arrays and the whole weight and bias arrays, and writes back the same rows of the output. So what point t
  writes back is block t of ONE array function — the layer's product arrangement of the arrays as the launch finds them —
  and, the 50 blocks tiling the 100000 rows, the output array ends holding that function. Stated for any contents the
  launch may find, so that it serves both launches.
-/
import proofs.«146578_j68676527063444_1_alg».proof.Proof.Gen.KernelIdeal.Frame
import proofs.«146578_j68676527063444_1_alg».proof.Proof.KernelPayload
import Idealize.ShloMosaic.Lib.Pipeline.Value

set_option maxRecDepth 16384

noncomputable section

namespace Cert.KernelIdeal.SageArrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.SageBody

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the row-blocked windows sit at block (t, 0), the weight and bias windows at
    block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 50 := by
  have h := t.isLt
  have hN : cfg0.N = 50 := N_0
  omega

/-- The factor column's block at point t is rows t·2000 … of the column. -/
theorem iblk0_w0 (c : Dev nD) (t : Fin cfg0.N) (p : Fin 2000) :
    (iblk0 V c 0 t : Vec Ideal S2000x1 .f32) (ix2 p (0 : Fin 1))
      = (V c main_v12 : S100000x1.Idx → EReal) (ix2 (blockRow t.val (tlt0 t) p) (0 : Fin 1)) := by
  obtain ⟨e0, e1, -⟩ := idx_facts0 t
  unfold iblk0
  rw [View.read_apply]
  show V c main_v12 (((cfg0.win 0).blk t).view.emb (ix2 p (0 : Fin 1))) = V c main_v12 _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 1 + 1 * 0 = 0; rw [e1]

/-- The message block at point t is rows t·2000 … of the message array. -/
theorem iblk0_w1 (c : Dev nD) (t : Fin cfg0.N) (p : Fin 2000) (k : Fin 128) :
    (iblk0 V c 1 t : Vec Ideal S2000x128 .f32) (ix2 p k)
      = (V c main_v22 : S100000x128.Idx → EReal) (ix2 (blockRow t.val (tlt0 t) p) k) := by
  obtain ⟨-, -, e0, e1, -⟩ := idx_facts0 t
  unfold iblk0
  rw [View.read_apply]
  show V c main_v22 (((cfg0.win 1).blk t).view.emb (ix2 p k)) = V c main_v22 _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The root block at point t is rows t·2000 … of the root array. -/
theorem iblk0_w2 (c : Dev nD) (t : Fin cfg0.N) (p : Fin 2000) (k : Fin 128) :
    (iblk0 V c 2 t : Vec Ideal S2000x128 .f32) (ix2 p k)
      = (V c main_arg0 : S100000x128.Idx → EReal) (ix2 (blockRow t.val (tlt0 t) p) k) := by
  obtain ⟨-, -, -, -, e0, e1, -⟩ := idx_facts0 t
  unfold iblk0
  rw [View.read_apply]
  show V c main_arg0 (((cfg0.win 2).blk t).view.emb (ix2 p k)) = V c main_arg0 _
  refine congrArg _ (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

/-- The first weight window's block is its whole array at every point. -/
theorem iblk0_w3 (c : Dev nD) (t : Fin cfg0.N) (k q : Fin 128) :
    (iblk0 V c 3 t : Vec Ideal S128x128 .f32) (ix2 k q) = (V c main_v23 : S128x128.Idx → EReal) (ix2 k q) := by
  obtain ⟨-, -, -, -, -, -, e0, e1, -⟩ := idx_facts0 t
  unfold iblk0
  rw [View.read_apply]
  show V c main_v23 (((cfg0.win 3).blk t).view.emb (ix2 k q)) = V c main_v23 _
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The bias window's block is its whole row at every point. -/
theorem iblk0_w4 (c : Dev nD) (t : Fin cfg0.N) (q : Fin 128) :
    (iblk0 V c 4 t : Vec Ideal S1x128 .f32) (ix2 (0 : Fin 1) q) = (V c main_v24 : S1x128.Idx → EReal) (ix2 (0 : Fin 1) q) := by
  obtain ⟨-, -, -, -, -, -, -, -, e0, e1, -⟩ := idx_facts0 t
  unfold iblk0
  rw [View.read_apply]
  show V c main_v24 (((cfg0.win 4).blk t).view.emb (ix2 (0 : Fin 1) q)) = V c main_v24 _
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The second weight window's block is its whole array at every point. -/
theorem iblk0_w5 (c : Dev nD) (t : Fin cfg0.N) (k q : Fin 128) :
    (iblk0 V c 5 t : Vec Ideal S128x128 .f32) (ix2 k q) = (V c main_v25 : S128x128.Idx → EReal) (ix2 k q) := by
  obtain ⟨-, -, -, -, -, -, -, -, -, -, e0, e1, -⟩ := idx_facts0 t
  unfold iblk0
  rw [View.read_apply]
  show V c main_v25 (((cfg0.win 5).blk t).view.emb (ix2 k q)) = V c main_v25 _
  refine congrArg _ (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- The layer (product arrangement) of the arrays as region 0 finds them. -/
abbrev layer0 (c : Dev nD) : (⟨2, ![100000, 128]⟩ : Shape).Idx → EReal :=
  Sage.arrP true (V c main_v22 : S100000x128.Idx → EReal) (V c main_arg0 : S100000x128.Idx → EReal) (V c main_v12 : S100000x1.Idx → EReal)
    (V c main_v23 : S128x128.Idx → EReal) (V c main_v25 : S128x128.Idx → EReal) (V c main_v24 : S1x128.Idx → EReal)

/-- What point t writes back is block t of the layer of the entry arrays. -/
theorem flushed0 (c : Dev nD) (t : Fin cfg0.N) :
    (dat0 V c).flushed 6 t = ((cfg0.win 6).blk t).view.read (Elt Ideal) (layer0 V c) := by
  obtain ⟨-, -, -, -, -, -, -, -, -, -, -, -, e0, e1⟩ := idx_facts0 t
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  funext y
  show k0_pay1 (F := Ideal) (iblk0 V c 1 t) (iblk0 V c 0 t) (iblk0 V c 2 t) (iblk0 V c 3 t) (iblk0 V c 5 t) (iblk0 V c 4 t) y
    = layer0 V c (((cfg0.win 6).blk t).view.emb y)
  refine block0_eq _ _ _ _ _ _ _ _ _ _ _ _ t.val (tlt0 t) (iblk0_w1 V c t) (iblk0_w0 V c t) (iblk0_w2 V c t)
    (iblk0_w3 V c t) (iblk0_w5 V c t) (iblk0_w4 V c t) y _ ?_ ?_
  · show win0_6.index t (0 : Fin 2) * 2000 + 1 * (y 0).val = t.val * 2000 + (y 0).val
    rw [e0]; omega
  · show win0_6.index t (1 : Fin 2) * 128 + 1 * (y 1).val = (y 1).val
    rw [e1]; omega

/-- Every row of the output array lies in the block of the point numbered by the row's quotient by 2000. -/
theorem cover0 (i : S100000x128.Idx) :
    ∃ t : Fin cfg0.N, (cfg0.win 6).flush t = true ∧ i ∈ ((cfg0.win 6).blk t).view.set := by
  have hN : cfg0.N = 50 := N_0
  have hi0 : (i 0).val < 100000 := (i 0).isLt
  have hi1 : (i 1).val < 128 := (i 1).isLt
  let t : Fin cfg0.N := ⟨(i 0).val / 2000, by rw [hN]; omega⟩
  obtain ⟨-, -, -, -, -, -, -, -, -, -, -, -, e0, e1⟩ := idx_facts0 t
  have ht : t.val = (i 0).val / 2000 := rfl
  refine ⟨t, flush0_6 t, ?_⟩
  show i ∈ ((View.whole main_v26).slice (win0_6.rect t)).set
  rw [View.set_slice_whole, Rect.mem_set_unit]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 128 ≤ (i 1).val ∧ (i 1).val < win0_6.index t (1 : Fin 2) * 128 + 128
    rw [e1]; omega

/-- The output array after region 0: the layer of the region's entry arrays. -/
theorem final0 (c : Dev nD) : (dat0 V c).arrAt 6 cfg0.N = layer0 V c :=
  (dat0 V c).arrAt_eq_of_cover 6 (layer0 V c) (fun t _ => flushed0 V c t) (cover0)

/-! ## Region 1 -/

/-- The printed index maps over the grid: the row-blocked windows sit at block (t, 0), the weight and bias windows at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tlt1 (t : Fin cfg1.N) : t.val < 50 := by
  have h := t.isLt
  have hN : cfg1.N = 50 := N_1
  omega

/-- The factor column's block at point t is rows t·2000 … of the column. -/
theorem iblk1_w0 (c : Dev nD) (t : Fin cfg1.N) (p : Fin 2000) :
    (iblk1 V c 0 t : Vec Ideal S2000x1 .f32) (ix2 p (0 : Fin 1))
      = (V c main_v12 : S100000x1.Idx → EReal) (ix2 (blockRow t.val (tlt1 t) p) (0 : Fin 1)) := by
  obtain ⟨e0, e1, -⟩ := idx_facts1 t
  unfold iblk1
  rw [View.read_apply]
  show V c main_v12 (((cfg1.win 0).blk t).view.emb (ix2 p (0 : Fin 1))) = V c main_v12 _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 1 + 1 * 0 = 0; rw [e1]

/-- The message block at point t is rows t·2000 … of the message array. -/
theorem iblk1_w1 (c : Dev nD) (t : Fin cfg1.N) (p : Fin 2000) (k : Fin 128) :
    (iblk1 V c 1 t : Vec Ideal S2000x128 .f32) (ix2 p k)
      = (V c main_v36 : S100000x128.Idx → EReal) (ix2 (blockRow t.val (tlt1 t) p) k) := by
  obtain ⟨-, -, e0, e1, -⟩ := idx_facts1 t
  unfold iblk1
  rw [View.read_apply]
  show V c main_v36 (((cfg1.win 1).blk t).view.emb (ix2 p k)) = V c main_v36 _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 128 + 1 * k.val = k.val; rw [e1]; omega

/-- The root block at point t is rows t·2000 … of the root array. -/
theorem iblk1_w2 (c : Dev nD) (t : Fin cfg1.N) (p : Fin 2000) (k : Fin 128) :
    (iblk1 V c 2 t : Vec Ideal S2000x128 .f32) (ix2 p k)
      = (V c main_v26 : S100000x128.Idx → EReal) (ix2 (blockRow t.val (tlt1 t) p) k) := by
  obtain ⟨-, -, -, -, e0, e1, -⟩ := idx_facts1 t
  unfold iblk1
  rw [View.read_apply]
  show V c main_v26 (((cfg1.win 2).blk t).view.emb (ix2 p k)) = V c main_v26 _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 128 + 1 * k.val = k.val; rw [e1]; omega

/-- The first weight window's block is its whole array at every point. -/
theorem iblk1_w3 (c : Dev nD) (t : Fin cfg1.N) (k q : Fin 128) :
    (iblk1 V c 3 t : Vec Ideal S128x128 .f32) (ix2 k q) = (V c main_v37 : S128x128.Idx → EReal) (ix2 k q) := by
  obtain ⟨-, -, -, -, -, -, e0, e1, -⟩ := idx_facts1 t
  unfold iblk1
  rw [View.read_apply]
  show V c main_v37 (((cfg1.win 3).blk t).view.emb (ix2 k q)) = V c main_v37 _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The bias window's block is its whole row at every point. -/
theorem iblk1_w4 (c : Dev nD) (t : Fin cfg1.N) (q : Fin 128) :
    (iblk1 V c 4 t : Vec Ideal S1x128 .f32) (ix2 (0 : Fin 1) q) = (V c main_v38 : S1x128.Idx → EReal) (ix2 (0 : Fin 1) q) := by
  obtain ⟨-, -, -, -, -, -, -, -, e0, e1, -⟩ := idx_facts1 t
  unfold iblk1
  rw [View.read_apply]
  show V c main_v38 (((cfg1.win 4).blk t).view.emb (ix2 (0 : Fin 1) q)) = V c main_v38 _
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- The second weight window's block is its whole array at every point. -/
theorem iblk1_w5 (c : Dev nD) (t : Fin cfg1.N) (k q : Fin 128) :
    (iblk1 V c 5 t : Vec Ideal S128x128 .f32) (ix2 k q) = (V c main_v39 : S128x128.Idx → EReal) (ix2 k q) := by
  obtain ⟨-, -, -, -, -, -, -, -, -, -, e0, e1, -⟩ := idx_facts1 t
  unfold iblk1
  rw [View.read_apply]
  show V c main_v39 (((cfg1.win 5).blk t).view.emb (ix2 k q)) = V c main_v39 _
  refine congrArg _ (funext fun a => Fin.ext ?_)
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- The layer (product arrangement) of the arrays as region 1 finds them. -/
abbrev layer1 (c : Dev nD) : (⟨2, ![100000, 128]⟩ : Shape).Idx → EReal :=
  Sage.arrP false (V c main_v36 : S100000x128.Idx → EReal) (V c main_v26 : S100000x128.Idx → EReal) (V c main_v12 : S100000x1.Idx → EReal)
    (V c main_v37 : S128x128.Idx → EReal) (V c main_v39 : S128x128.Idx → EReal) (V c main_v38 : S1x128.Idx → EReal)

/-- What point t writes back is block t of the layer of the entry arrays. -/
theorem flushed1 (c : Dev nD) (t : Fin cfg1.N) :
    (dat1 V c).flushed 6 t = ((cfg1.win 6).blk t).view.read (Elt Ideal) (layer1 V c) := by
  obtain ⟨-, -, -, -, -, -, -, -, -, -, -, -, e0, e1⟩ := idx_facts1 t
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz, View.ld_unit_zero (S := S128x128) hz,
    View.ld_unit_zero (S := S1x128) hz]
  funext y
  show k1_pay1 (F := Ideal) (iblk1 V c 1 t) (iblk1 V c 0 t) (iblk1 V c 2 t) (iblk1 V c 3 t) (iblk1 V c 5 t) (iblk1 V c 4 t) y
    = layer1 V c (((cfg1.win 6).blk t).view.emb y)
  refine block1_eq _ _ _ _ _ _ _ _ _ _ _ _ t.val (tlt1 t) (iblk1_w1 V c t) (iblk1_w0 V c t) (iblk1_w2 V c t)
    (iblk1_w3 V c t) (iblk1_w5 V c t) (iblk1_w4 V c t) y _ ?_ ?_
  · show win1_6.index t (0 : Fin 2) * 2000 + 1 * (y 0).val = t.val * 2000 + (y 0).val
    rw [e0]; omega
  · show win1_6.index t (1 : Fin 2) * 128 + 1 * (y 1).val = (y 1).val
    rw [e1]; omega

/-- Every row of the output array lies in the block of the point numbered by the row's quotient by 2000. -/
theorem cover1 (i : S100000x128.Idx) :
    ∃ t : Fin cfg1.N, (cfg1.win 6).flush t = true ∧ i ∈ ((cfg1.win 6).blk t).view.set := by
  have hN : cfg1.N = 50 := N_1
  have hi0 : (i 0).val < 100000 := (i 0).isLt
  have hi1 : (i 1).val < 128 := (i 1).isLt
  let t : Fin cfg1.N := ⟨(i 0).val / 2000, by rw [hN]; omega⟩
  obtain ⟨-, -, -, -, -, -, -, -, -, -, -, -, e0, e1⟩ := idx_facts1 t
  have ht : t.val = (i 0).val / 2000 := rfl
  refine ⟨t, flush1_6 t, ?_⟩
  show i ∈ ((View.whole main_v40).slice (win1_6.rect t)).set
  rw [View.set_slice_whole, Rect.mem_set_unit]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-- The output array after region 1: the layer of the region's entry arrays. -/
theorem final1 (c : Dev nD) : (dat1 V c).arrAt 6 cfg1.N = layer1 V c :=
  (dat1 V c).arrAt_eq_of_cover 6 (layer1 V c) (fun t _ => flushed1 V c t) (cover1)

end Cert.KernelIdeal.SageArrays

end
-- ==== Proof.RefLayers.lean ====
/-
  The reference, layer by layer. Its result is read through the generated stage-by-stage lemmas down to the two
  operations those lemmas do not open — the gather of rows at the edges' sources and the scatter-add at the edges'
  destinations, which stay opaque — and comes out as the layer's quotient arrangement, twice: of the input features, and of
  the first layer's output. Also here: the reciprocal-of-clamped-degree column read at an entry, and that a clamped degree is
  not zero.
-/
import proofs.«146578_j68676527063444_1_alg».proof.Proof.Gen.ReferenceIdeal.Read
import proofs.«146578_j68676527063444_1_alg».proof.Proof.SageLaw
import proofs.«146578_j68676527063444_1_alg».proof.Proof.LibKeepdims
import Idealize.ShloMosaic.Lib.IdealHost
import Idealize.ShloMosaic.PureOps.Ideal.Laws

noncomputable section

namespace Cert.ReferenceIdeal.SageRef

open Idealize.ShloMosaic Idealize.ShloMosaic.ValueIdx Cert.ReferenceIdeal Cert.ReferenceIdeal.Gen Cert.ReferenceIdeal.Read

/-- The reference's first layer, after its positive part, is the layer's quotient arrangement of: the summed messages,
    the input features as root, the clamped degrees, the two transposed weights and the bias. Both matrix products are
    read as sums over the 128 contracted positions; the clamped degree reaches entry (r, k) through two broadcasts. -/
theorem layer1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v31 (F := Ideal) x0 x1 x2 x3 x4
      = Sage.arrQ true (val_main_v13 (F := Ideal) x0 x1) x0 (val_main_v19 (F := Ideal) x1) (val_main_v23 (F := Ideal) x2)
          (val_main_v28 (F := Ideal) x4) x3 := by
  funext j
  obtain ⟨r, q, rfl⟩ : ∃ (r : Fin 100000) (q : Fin 128), j = ix2 r q := ⟨j 0, j 1, eq_ix2 j⟩
  have el : ∀ k : Fin 128, lidx_main_v24 (ix2 r q) k = ix2 r k := fun k => funext fun a => Fin.ext (by
    match a with | ⟨0, _⟩ => rfl | ⟨1, _⟩ => rfl)
  have er : ∀ k : Fin 128, ridx_main_v24 (ix2 r q) k = ix2 k q := fun k => funext fun a => Fin.ext (by
    match a with | ⟨0, _⟩ => rfl | ⟨1, _⟩ => rfl)
  have el' : ∀ k : Fin 128, lidx_main_v29 (ix2 r q) k = ix2 r k := fun k => funext fun a => Fin.ext (by
    match a with | ⟨0, _⟩ => rfl | ⟨1, _⟩ => rfl)
  have er' : ∀ k : Fin 128, ridx_main_v29 (ix2 r q) k = ix2 k q := fun k => funext fun a => Fin.ext (by
    match a with | ⟨0, _⟩ => rfl | ⟨1, _⟩ => rfl)
  have ed : ∀ k : Fin 128, idx_main_v20 (idx_main_v21 (ix2 r k)) = ix1 r := fun k => funext fun a => Fin.ext (by
    match a with | ⟨0, _⟩ => rfl)
  have eb : idx_main_v25 (idx_main_v26 (ix2 r q)) = ix1 q := funext fun a => Fin.ext (by
    match a with | ⟨0, _⟩ => rfl)
  show _ = Sage.rowQ true (val_main_v13 (F := Ideal) x0 x1) x0 (val_main_v19 (F := Ideal) x1) (val_main_v23 (F := Ideal) x2)
          (val_main_v28 (F := Ideal) x4) x3 r q
  rw [val_main_v31_apply, val_main_v30_apply, val_main_v27_apply, val_main_v24_apply, val_main_v29_apply, val_main_v26_apply,
    val_main_v25_apply, val_main_call0_v0_apply, val_main_call0_cst_apply]
  simp only [el, er, el', er', eb, Ideal.addf_def, Ideal.maximumf_def]
  unfold Sage.rowQ Sage.post
  rw [if_pos rfl]
  have hk : ∀ k : Fin 128, val_main_v22 (F := Ideal) x0 x1 (ix2 r k)
      = Ideal.div (val_main_v13 (F := Ideal) x0 x1 (ix2 r k)) (val_main_v19 (F := Ideal) x1 (ix1 r)) := fun k => by
    rw [val_main_v22_apply, val_main_v21_apply, val_main_v20_apply, ed k]
    rfl
  simp only [hk]
  exact congrArg _ Ideal.ofBits_zero_f32

/-- The summed messages of the second layer, as a function of the first layer's output `h`: rows of `h` gathered at the
    edges' sources and added up at the edges' destinations. -/
def aggregate (h : (⟨S100000x128, .f32⟩ : BufTy).Contents (Elt Ideal)) (x1 : (⟨S2x1600000, .i32⟩ : BufTy).Contents (Elt Ideal)) :
    (⟨S100000x128, .f32⟩ : BufTy).Contents (Elt Ideal) :=
  (Host.scatterAdd (F := Ideal) scatter_S100000x128_S1600000x1_S1600000x128_1_0_0_1 (val_main_v39 (F := Ideal) : FVec Ideal S100000x128 .f32)
    (val_main_v40 (F := Ideal) x1)
    (Host.gather gather_S100000x128_S1600000x1_S1600000x128_1_0_n_n_0_1_1128 (h : FVec Ideal S100000x128 .f32) (val_main_v37 (F := Ideal) x1)
      : FVec Ideal S1600000x128 .f32) : FVec Ideal S100000x128 .f32)

theorem val_main_v41_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v41 (F := Ideal) x0 x1 x2 x3 x4 = aggregate (val_main_v31 (F := Ideal) x0 x1 x2 x3 x4) x1 := rfl

/-- The in-degrees are computed twice by the reference, by the same operations. -/
theorem val_main_v47_eq (x1 : (⟨S2x1600000, .i32⟩ : BufTy).Contents (Elt Ideal)) :
    val_main_v47 (F := Ideal) x1 = val_main_v19 (F := Ideal) x1 := rfl

/-- The reference's result is the layer's quotient arrangement of the second layer's operands, without a positive part. -/
theorem layer2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v58 (F := Ideal) x0 x1 x2 x3 x4 x5 x6 x7
      = Sage.arrQ false (val_main_v41 (F := Ideal) x0 x1 x2 x3 x4) (val_main_v31 (F := Ideal) x0 x1 x2 x3 x4)
          (val_main_v47 (F := Ideal) x1) (val_main_v51 (F := Ideal) x5) (val_main_v56 (F := Ideal) x7) x6 := by
  funext j
  obtain ⟨r, q, rfl⟩ : ∃ (r : Fin 100000) (q : Fin 128), j = ix2 r q := ⟨j 0, j 1, eq_ix2 j⟩
  have el : ∀ k : Fin 128, lidx_main_v52 (ix2 r q) k = ix2 r k := fun k => funext fun a => Fin.ext (by
    match a with | ⟨0, _⟩ => rfl | ⟨1, _⟩ => rfl)
  have er : ∀ k : Fin 128, ridx_main_v52 (ix2 r q) k = ix2 k q := fun k => funext fun a => Fin.ext (by
    match a with | ⟨0, _⟩ => rfl | ⟨1, _⟩ => rfl)
  have el' : ∀ k : Fin 128, lidx_main_v57 (ix2 r q) k = ix2 r k := fun k => funext fun a => Fin.ext (by
    match a with | ⟨0, _⟩ => rfl | ⟨1, _⟩ => rfl)
  have er' : ∀ k : Fin 128, ridx_main_v57 (ix2 r q) k = ix2 k q := fun k => funext fun a => Fin.ext (by
    match a with | ⟨0, _⟩ => rfl | ⟨1, _⟩ => rfl)
  have ed : ∀ k : Fin 128, idx_main_v48 (idx_main_v49 (ix2 r k)) = ix1 r := fun k => funext fun a => Fin.ext (by
    match a with | ⟨0, _⟩ => rfl)
  have eb : idx_main_v53 (idx_main_v54 (ix2 r q)) = ix1 q := funext fun a => Fin.ext (by
    match a with | ⟨0, _⟩ => rfl)
  show _ = Sage.rowQ false (val_main_v41 (F := Ideal) x0 x1 x2 x3 x4) (val_main_v31 (F := Ideal) x0 x1 x2 x3 x4)
          (val_main_v47 (F := Ideal) x1) (val_main_v51 (F := Ideal) x5) (val_main_v56 (F := Ideal) x7) x6 r q
  rw [val_main_v58_apply, val_main_v55_apply, val_main_v52_apply, val_main_v57_apply, val_main_v54_apply, val_main_v53_apply]
  simp only [el, er, el', er', eb, Ideal.addf_def]
  unfold Sage.rowQ Sage.post
  rw [if_neg (by decide)]
  have hk : ∀ k : Fin 128, val_main_v50 (F := Ideal) x0 x1 x2 x3 x4 (ix2 r k)
      = Ideal.div (val_main_v41 (F := Ideal) x0 x1 x2 x3 x4 (ix2 r k)) (val_main_v47 (F := Ideal) x1 (ix1 r)) := fun k => by
    rw [val_main_v50_apply, val_main_v49_apply, val_main_v48_apply, ed k]
    rfl
  simp only [hk]

set_option maxRecDepth 65536 in
/-- The per-node factor: the reciprocal of the clamped degree, recast as a column, read at (r, 0). The constant's word
    0x3F800000 is the real 1. -/
theorem inv_apply (x1 : (⟨S2x1600000, .i32⟩ : BufTy).Contents (Elt Ideal)) (h : S100000.ShapeCasts S100000x1) (r : Fin 100000) :
    shapeCast S100000x1 (Host.divf (F := Ideal) (val_main_v18 (F := Ideal) : FVec Ideal S100000 .f32) (val_main_v19 (F := Ideal) x1)
        : FVec Ideal S100000 .f32) h (ix2 r (0 : Fin 1))
      = Ideal.div 1 (val_main_v19 (F := Ideal) x1 (ix1 r)) := by
  refine (Keepdims.shapeCast_a_a1_apply (a := 100000) _ h r (0 : Fin 1)).trans ?_
  rw [ValueIdx.hostDivf_apply, val_main_v18_apply, val_main_cst_3_apply]
  exact congrArg (fun z => Ideal.div z (val_main_v19 (F := Ideal) x1 (ix1 r))) Ideal.ofBits_one_f32

/-- The clamped degree is never zero: it is a maximum with one. -/
theorem dmax_ne_zero (x1 : (⟨S2x1600000, .i32⟩ : BufTy).Contents (Elt Ideal)) (r : Fin 100000) :
    val_main_v19 (F := Ideal) x1 (ix1 r) ≠ 0 := by
  rw [val_main_v19_apply, val_main_v18_apply, val_main_cst_3_apply]
  show max _ (Ideal.ofBits .f32 0x3F800000#32) ≠ 0
  rw [Ideal.ofBits_one_f32]
  exact Sage.max_one_ne_zero _

end Cert.ReferenceIdeal.SageRef

end
-- ==== Proof.KernelHost.lean ====
/-
  The host operations around the two launches, read back. Before the first launch the host computes the in-degrees, their
  clamp, the reciprocal column, the summed messages of the input features, and lays the weights and the bias out; between
  the launches it gathers and sums the first layer's output the same way. Each array a launch finds is stated here as
  that composition of the argument arrays — spelt with the reference's own stage functions, since the host operations are
  the same ones — and each launch's output as the layer (product arrangement) of the arrays it found.
-/
import proofs.«146578_j68676527063444_1_alg».proof.Proof.Gen.KernelIdeal.Frame
import proofs.«146578_j68676527063444_1_alg».proof.Proof.KernelArrays
import proofs.«146578_j68676527063444_1_alg».proof.Proof.RefLayers
import Idealize.ShloMosaic.Lib.StableHlo.Run

set_option maxRecDepth 16384

noncomputable section

namespace Cert.KernelIdeal.SageHost

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.SageArrays

variable (m : (ℓ : Loc nD τ sig) → Buf (Elt Ideal) ℓ) (ρ : Dev nD → PrngReg)

/-- The per-node factor column: one over the clamped in-degree, as a column of 100000 rows. -/
def invCol (x1 : (⟨S2x1600000, .i32⟩ : BufTy).Contents (Elt Ideal)) : S100000x1.Idx → EReal :=
  shapeCast S100000x1 (Host.divf (F := Ideal) (Cert.ReferenceIdeal.Read.val_main_v18 (F := Ideal) : FVec Ideal S100000 .f32) (Cert.ReferenceIdeal.Read.val_main_v19 (F := Ideal) x1)
    : FVec Ideal S100000 .f32) Facts₀.shapeCasts_S100000_S100000x1

/-- A bias vector as a row. -/
def biasRow (b : (⟨S128, .f32⟩ : BufTy).Contents (Elt Ideal)) : S1x128.Idx → EReal :=
  shapeCast S1x128 (b : S128.Idx → EReal) Facts₀.shapeCasts_S128_S1x128

/-! ## What the first launch finds -/

theorem V1_inv (c : Dev nD) : (V1 m ρ c main_v12 : S100000x1.Idx → EReal) = invCol (m ((c.tc : Thread nD τ).loc main_arg1)) := by
  show StableHlo.after hostOps0 (W0 m ρ c) (Proc.devRef .tc main_v12) = _
  after_results
  rfl

set_option maxHeartbeats 2000000 in
theorem V1_msg (c : Dev nD) : (V1 m ρ c main_v22 : S100000x128.Idx → EReal) = Cert.ReferenceIdeal.Read.val_main_v13 (F := Ideal) (m ((c.tc : Thread nD τ).loc main_arg0)) (m ((c.tc : Thread nD τ).loc main_arg1)) := by
  show StableHlo.after hostOps0 (W0 m ρ c) (Proc.devRef .tc main_v22) = _
  after_results_simp
  rfl

theorem V1_root (c : Dev nD) : (V1 m ρ c main_arg0 : S100000x128.Idx → EReal) = (m ((c.tc : Thread nD τ).loc main_arg0)) := by
  show StableHlo.after hostOps0 (W0 m ρ c) (Proc.devRef .tc main_arg0) = _
  after_results
  all_goals rfl

theorem V1_wl (c : Dev nD) : (V1 m ρ c main_v23 : S128x128.Idx → EReal) = Cert.ReferenceIdeal.Read.val_main_v23 (F := Ideal) (m ((c.tc : Thread nD τ).loc main_arg2)) := by
  show StableHlo.after hostOps0 (W0 m ρ c) (Proc.devRef .tc main_v23) = _
  after_results
  rfl

theorem V1_b (c : Dev nD) : (V1 m ρ c main_v24 : S1x128.Idx → EReal) = biasRow (m ((c.tc : Thread nD τ).loc main_arg3)) := by
  show StableHlo.after hostOps0 (W0 m ρ c) (Proc.devRef .tc main_v24) = _
  after_results
  rfl

theorem V1_wr (c : Dev nD) : (V1 m ρ c main_v25 : S128x128.Idx → EReal) = Cert.ReferenceIdeal.Read.val_main_v28 (F := Ideal) (m ((c.tc : Thread nD τ).loc main_arg4)) := by
  show StableHlo.after hostOps0 (W0 m ρ c) (Proc.devRef .tc main_v25) = _
  after_results
  rfl

/-- The first launch's output: the layer, with its positive part, of what the launch found. -/
theorem W2_h (c : Dev nD) : W2 m ρ c (Proc.devRef .tc main_v26) = layer0 (V1 m ρ) c :=
  (W2_arr m ρ c 6).trans (final0 (V1 m ρ) c)

/-! ## What the second launch finds -/

theorem W2_v1 (c : Dev nD) : W2 m ρ c (Proc.devRef .tc main_v1) = Cert.ReferenceIdeal.Read.val_main_v1 (F := Ideal) (m ((c.tc : Thread nD τ).loc main_arg1)) :=
  (W2_of_ne m ρ c main_v1 (by decide)).trans (by
    show StableHlo.after hostOps0 (W0 m ρ c) (Proc.devRef .tc main_v1) = _
    after_results
    rfl)

theorem W2_v3 (c : Dev nD) : W2 m ρ c (Proc.devRef .tc main_v3) = Cert.ReferenceIdeal.Read.val_main_v3 (F := Ideal) (m ((c.tc : Thread nD τ).loc main_arg1)) :=
  (W2_of_ne m ρ c main_v3 (by decide)).trans (by
    show StableHlo.after hostOps0 (W0 m ρ c) (Proc.devRef .tc main_v3) = _
    after_results
    rfl)

theorem W2_arg5 (c : Dev nD) : W2 m ρ c (Proc.devRef .tc main_arg5) = (m ((c.tc : Thread nD τ).loc main_arg5)) :=
  (W2_of_ne m ρ c main_arg5 (by decide)).trans (by
    show StableHlo.after hostOps0 (W0 m ρ c) (Proc.devRef .tc main_arg5) = _
    after_results
    all_goals rfl)

theorem W2_arg6 (c : Dev nD) : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results
    all_goals rfl)

theorem W2_arg7 (c : Dev nD) : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results
    all_goals rfl)

/-- The factor column is an input of the first launch, which leaves it as found. -/
theorem W2_inv (c : Dev nD) : W2 m ρ c (Proc.devRef .tc main_v12) = invCol (m ((c.tc : Thread nD τ).loc main_arg1)) :=
  ((W2_arr m ρ c 0).trans (((dat0 (V1 m ρ) c).arrAt_in 0 rfl _).trans (A_eq0 (V1 m ρ) c 0))).trans (V1_inv m ρ c)

theorem V3_inv (c : Dev nD) : (V3 m ρ c main_v12 : S100000x1.Idx → EReal) = invCol (m ((c.tc : Thread nD τ).loc main_arg1)) := by
  show StableHlo.after hostOps1 (W2 m ρ c) (Proc.devRef .tc main_v12) = _
  after_results
  exact W2_inv m ρ c

theorem V3_root (c : Dev nD) : (V3 m ρ c main_v26 : S100000x128.Idx → EReal) = W2 m ρ c (Proc.devRef .tc main_v26) := by
  show StableHlo.after hostOps1 (W2 m ρ c) (Proc.devRef .tc main_v26) = _
  after_results
  all_goals rfl

theorem V3_msg (c : Dev nD) : (V3 m ρ c main_v36 : S100000x128.Idx → EReal)
    = Cert.ReferenceIdeal.SageRef.aggregate (W2 m ρ c (Proc.devRef .tc main_v26)) (m ((c.tc : Thread nD τ).loc main_arg1)) := by
  show StableHlo.after hostOps1 (W2 m ρ c) (Proc.devRef .tc main_v36) = _
  after_results
  rw [W2_v1 m ρ c, W2_v3 m ρ c]
  rfl

theorem V3_wl (c : Dev nD) : (V3 m ρ c main_v37 : S128x128.Idx → EReal) = Cert.ReferenceIdeal.Read.val_main_v51 (F := Ideal) (m ((c.tc : Thread nD τ).loc main_arg5)) := by
  show StableHlo.after hostOps1 (W2 m ρ c) (Proc.devRef .tc main_v37) = _
  after_results
  rw [W2_arg5 m ρ c]
  rfl

theorem V3_b (c : Dev nD) : (V3 m ρ c main_v38 : S1x128.Idx → EReal) = biasRow (m ((c.tc : Thread nD τ).loc main_arg6)) := by
  show StableHlo.after hostOps1 (W2 m ρ c) (Proc.devRef .tc main_v38) = _
  after_results
  rw [W2_arg6 m ρ c]
  rfl

theorem V3_wr (c : Dev nD) : (V3 m ρ c main_v39 : S128x128.Idx → EReal) = Cert.ReferenceIdeal.Read.val_main_v56 (F := Ideal) (m ((c.tc : Thread nD τ).loc main_arg7)) := by
  show StableHlo.after hostOps1 (W2 m ρ c) (Proc.devRef .tc main_v39) = _
  after_results
  rw [W2_arg7 m ρ c]
  rfl

/-- The second launch's output, the program's result: the layer, without a positive part, of what the launch found. -/
theorem W4_out (c : Dev nD) : W4 m ρ c (Proc.devRef .tc main_v40) = layer1 (V3 m ρ) c :=
  (W4_arr m ρ c 6).trans (final1 (V3 m ρ) c)

end Cert.KernelIdeal.SageHost

end
-- ==== Proof.Bridge.lean ====
/-
  The two programs meet. The idealized kernel's first launch leaves the layer's product arrangement of (summed messages,
  input features, reciprocal column, transposed weights, bias row); the reference's first layer is the quotient arrangement
  of the same operands; the two arrangements agree because a clamped degree is never zero. So the hidden features agree,
  hence — the gather and scatter-add being the same operations on both sides — so do the second layer's summed messages,
  and the same law once more gives the result.
-/
import proofs.«146578_j68676527063444_1_alg».proof.Proof.KernelHost
import proofs.«146578_j68676527063444_1_alg».proof.Proof.RefLayers
import Idealize.ShloMosaic.Lib.ValueLayout

set_option maxRecDepth 16384

noncomputable section

namespace Cert.KernelIdeal.SageBridge

open Idealize.ShloMosaic Idealize.ShloMosaic.TcCoe Idealize.SL.Sem Idealize.ShloMosaic.ValueIdx
open Cert.KernelIdeal Cert.KernelIdeal.Gen Cert.KernelIdeal.SageArrays Cert.KernelIdeal.SageHost

variable (m : (ℓ : Loc nD τ sig) → Buf (Elt Ideal) ℓ) (ρ : Dev nD → PrngReg)

theorem invCol_apply (x1 : (⟨S2x1600000, .i32⟩ : BufTy).Contents (Elt Ideal)) (r : Fin 100000) :
    invCol x1 (ix2 r (0 : Fin 1)) = Ideal.div 1 (Cert.ReferenceIdeal.Read.val_main_v19 (F := Ideal) x1 (ix1 r)) := by
  unfold invCol
  exact Cert.ReferenceIdeal.SageRef.inv_apply x1 _ r

theorem biasRow_apply (b : (⟨S128, .f32⟩ : BufTy).Contents (Elt Ideal)) (q : Fin 128) :
    biasRow b (ix2 (0 : Fin 1) q) = (b : (⟨1, ![128]⟩ : Shape).Idx → EReal) (ix1 q) := by
  unfold biasRow
  exact shapeCast_a_1a_apply (a := 128) _ _ (0 : Fin 1) q

/-- The hidden features the first launch leaves are the reference's first layer. -/
theorem hidden_eq (c : Dev nD) :
    W2 m ρ c (Proc.devRef .tc main_v26) = Cert.ReferenceIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [W2_h m ρ c]
  show Sage.arrP true (V1 m ρ c main_v22 : S100000x128.Idx → EReal) (V1 m ρ c main_arg0 : S100000x128.Idx → EReal)
    (V1 m ρ c main_v12 : S100000x1.Idx → EReal) (V1 m ρ c main_v23 : S128x128.Idx → EReal) (V1 m ρ c main_v25 : S128x128.Idx → EReal)
    (V1 m ρ c main_v24 : S1x128.Idx → EReal) = _
  rw [V1_msg m ρ c, V1_root m ρ c, V1_inv m ρ c, V1_wl m ρ c, V1_wr m ρ c, V1_b m ρ c, Cert.ReferenceIdeal.SageRef.layer1_eq]
  exact Sage.arrP_eq_arrQ true _ _ _ _ _ _ _ _ (fun r => invCol_apply _ r) (fun r => Cert.ReferenceIdeal.SageRef.dmax_ne_zero _ r)
    (fun q => biasRow_apply _ q)

/-- The result the second launch leaves is the reference's result. -/
theorem result_eq (c : Dev nD) :
    W4 m ρ c (Proc.devRef .tc main_v40) = Cert.ReferenceIdeal.Read.val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [W4_out m ρ c]
  show Sage.arrP false (V3 m ρ c main_v36 : S100000x128.Idx → EReal) (V3 m ρ c main_v26 : S100000x128.Idx → EReal)
    (V3 m ρ c main_v12 : S100000x1.Idx → EReal) (V3 m ρ c main_v37 : S128x128.Idx → EReal) (V3 m ρ c main_v39 : S128x128.Idx → EReal)
    (V3 m ρ c main_v38 : S1x128.Idx → EReal) = _
  rw [V3_msg m ρ c, V3_root m ρ c, V3_inv m ρ c, V3_wl m ρ c, V3_wr m ρ c, V3_b m ρ c, hidden_eq m ρ c,
    Cert.ReferenceIdeal.SageRef.layer2_eq, Cert.ReferenceIdeal.SageRef.val_main_v41_eq, Cert.ReferenceIdeal.SageRef.val_main_v47_eq]
  exact Sage.arrP_eq_arrQ false _ _ _ _ _ _ _ _ (fun r => invCol_apply _ r) (fun r => Cert.ReferenceIdeal.SageRef.dmax_ne_zero _ r)
    (fun q => biasRow_apply _ q)

end Cert.KernelIdeal.SageBridge

end
-- ==== Proof.lean ====
/-
  The certificate of a two-layer mean-aggregation graph network: the kernel program (two row-blocked launches, each
  computing (msg · 1/deg) · Wl + b + root · Wr for 2000 nodes at a time, with the neighbour sums and the degrees on the
  host) against the plain reference (msg / deg, the same products). At the extended reals the two results are one array:
  the only difference of arrangement is the reciprocal of the clamped degree taken once per node and multiplied in, against a
  division entry by entry, and the clamped degree max(deg, 1) is never zero. The frames of the two kernel programs are the
  generated ones; the reference's frame is its generated run with the result dropped; the idealization rewrote nothing.
-/
import proofs.«146578_j68676527063444_1_alg».proof.Defs
import proofs.«146578_j68676527063444_1_alg».proof.Proof.Gen.Kernel
import proofs.«146578_j68676527063444_1_alg».proof.Proof.Gen.Kernel.Frame
import proofs.«146578_j68676527063444_1_alg».proof.Proof.Gen.KernelIdeal
import proofs.«146578_j68676527063444_1_alg».proof.Proof.Gen.KernelIdeal.Frame
import proofs.«146578_j68676527063444_1_alg».proof.Proof.Gen.ReferenceIdeal
import proofs.«146578_j68676527063444_1_alg».proof.Proof.Gen.Pre_finite_inputs
import proofs.«146578_j68676527063444_1_alg».proof.Proof.Gen.ReferenceIdeal.Run
import proofs.«146578_j68676527063444_1_alg».proof.Proof.Gen.ReferenceIdeal.Read
import proofs.«146578_j68676527063444_1_alg».proof.Proof.KernelRun
import proofs.«146578_j68676527063444_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's composed function of the argument arrays. -/
theorem algebraic : Cert.algebraic_KernelIdeal_ReferenceIdeal := by
  intro m ρ m' ρ' _ hagree
  refine ⟨fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.SageBridge.result_eq m ρ c), (h c).2⟩)
      (Cert.KernelIdeal.SageRun.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
